-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32 : Shape := ⟨2, ![4096, 32]⟩
abbrev S1024x32768 : Shape := ⟨2, ![1024, 32768]⟩
abbrev S1024 : Shape := ⟨1, ![1024]⟩
abbrev S_ : Shape := ⟨0, ![]⟩

class Facts : Prop where
  bcast_S_S1024x32768 : S_.BroadcastsInDim S1024x32768 (![] : Fin 0 → Fin S1024x32768.rank)
  reducesTo_S1024x32768_S_d0_1 : S1024x32768.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : IVec S4096x32 32) (main_arg1 : FVec F S1024x32768 .f32) (main_arg2 : FVec F S1024 .f32) : IVec S_ 1 :=
  let main_v0 : FVec F S1024x32768 .f32 := Host.absf main_arg1
  let main_cst : FVec F S_ .f32 := constant S_ .f32 0x7F800000#32
  let main_v1 : FVec F S1024x32768 .f32 := broadcastInDim S1024x32768 ![] bcast_S_S1024x32768 main_cst
  let main_v2 : IVec S1024x32768 1 := cmpf .olt main_v0 main_v1
  let main_c : IVec S_ 1 := constantI S_ 1 1#1
  let main_v3 : IVec S_ 1 := (fun x v => Host.reduce IntOp.andi x v reducesTo_S1024x32768_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S4096x32 : Shape := ⟨2, ![4096, 32]⟩
abbrev S1024x32768 : Shape := ⟨2, ![1024, 32768]⟩
abbrev S1024 : Shape := ⟨1, ![1024]⟩
abbrev S32x4096 : Shape := ⟨2, ![32, 4096]⟩
abbrev S1x1024 : Shape := ⟨2, ![1, 1024]⟩
abbrev S4096x1024 : Shape := ⟨2, ![4096, 1024]⟩
abbrev S32x1024 : Shape := ⟨2, ![32, 1024]⟩
abbrev S1024x1024 : Shape := ⟨2, ![1024, 1024]⟩
abbrev S1024x1 : Shape := ⟨2, ![1024, 1]⟩
abbrev S_ : Shape := ⟨0, ![]⟩
abbrev S4096 : Shape := ⟨1, ![4096]⟩

abbrev nBuf : Space → Nat
  | .hbm => 9
  | .vmem => 7
  | .smem => 0
  | _ => 0

abbrev bufTy : (tb : Table) → Fin (tcTables nBuf tb) → BufTy
  | .hbm, ⟨0, _⟩ => ⟨S4096x32, .i32⟩
  | .hbm, ⟨1, _⟩ => ⟨S1024x32768, .f32⟩
  | .hbm, ⟨2, _⟩ => ⟨S1024, .f32⟩
  | .hbm, ⟨3, _⟩ => ⟨S32x4096, .i32⟩
  | .hbm, ⟨4, _⟩ => ⟨S1x1024, .f32⟩
  | .hbm, ⟨5, _⟩ => ⟨S1024x32768, .bf16⟩
  | .hbm, ⟨6, _⟩ => ⟨S4096x1024, .f32⟩
  | .hbm, ⟨7, _⟩ => ⟨S_, .f32⟩
  | .hbm, ⟨8, _⟩ => ⟨S4096, .f32⟩
  | .local _ .vmem, ⟨0, _⟩ => ⟨S32x1024, .i32⟩
  | .local _ .vmem, ⟨1, _⟩ => ⟨S32x1024, .i32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S4096x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 32], ![false, false]⟩

def k0_off1 (i : grid0.Coords) : Fin 2 → Nat :=
  let arg1 : BitVec 32 := BitVec.ofNat 32 (i 1).val
  let v3 : Index := Scalar.indexCast arg1
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4096x32_S32x4096_1_0 : S4096x32.Transposes [1, 0] S32x4096
  shapeCasts_S1024_S1x1024 : S1024.ShapeCasts S1x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  h_S1x1024 : 0 < S1x1024.numel
  shapeCasts_S1x1024_S1024 : S1x1024.ShapeCasts S1024
  shapeCasts_S1024_S1024x1 : S1024.ShapeCasts S1024x1
  iota_S1024x1024_d1_w32 : S1024x1024.Iotas .tc 32 [1]
  broadcasts_S1024x1_S1024x1024 : S1024x1.Broadcasts S1024x1024
  natLt_1_32 : 1 < 32
  shapeCasts_S1024x1024_S1024x1024 : S1024x1024.ShapeCasts S1024x1024
  inb_S1x1024_S1x1024_0_0 : ∀ a, (![0, 0] : Fin 2 → Nat) a + S1x1024.size a ≤ S1x1024.size a
  shapeCasts_S1x1024_S1x1024 : S1x1024.ShapeCasts S1x1024
  broadcasts_S1x1024_S1024x1024 : S1x1024.Broadcasts S1024x1024
  bcast_S_S4096 : S_.BroadcastsInDim S4096 (![] : Fin 0 → Fin S4096.rank)
  dot_S1024x1024_S1024x1024_S1024x1024_1_1_0_0_n_n_wf : DotDims.WF S1024x1024 S1024x1024 S1024x1024 [1] [1] [0] [0] [] []
  hrank0 : 0 < grid0.rank
  k0_off1_inb : ∀ i : grid0.Coords, ∀ a, (k0_off1 i) a + S1x1024.size a ≤ S32x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x4096.size a
  hwx0_0 : ∀ i : grid0.Coords, EltTy.bits .i32 = 32 ∨ (Rect.block (s := S32x4096) S32x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x32768.size a
  hwx0_1 : ∀ i : grid0.Coords, EltTy.bits .bf16 = 32 ∨ (Rect.block (s := S1024x32768) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .f32 = 32 ∨ (Rect.block (s := S4096x1024) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x32 : Shape := ⟨2, ![4096, 32]⟩
abbrev S1024x32768 : Shape := ⟨2, ![1024, 32768]⟩
abbrev S1024 : Shape := ⟨1, ![1024]⟩
abbrev S4096x32x1 : Shape := ⟨3, ![4096, 32, 1]⟩
abbrev S1x1x1024 : Shape := ⟨3, ![1, 1, 1024]⟩
abbrev S4096x32x1024 : Shape := ⟨3, ![4096, 32, 1024]⟩
abbrev S4096x32768 : Shape := ⟨2, ![4096, 32768]⟩
abbrev S32768x1024 : Shape := ⟨2, ![32768, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩

abbrev nBuf : Space → Nat
  | .hbm => 17
  | .vmem => 0
  | .smem => 0
  | _ => 0

abbrev bufTy : (tb : Table) → Fin (tcTables nBuf tb) → BufTy
  | .hbm, ⟨0, _⟩ => ⟨S4096x32, .i32⟩
  | .hbm, ⟨1, _⟩ => ⟨S1024x32768, .f32⟩
  | .hbm, ⟨2, _⟩ => ⟨S1024, .f32⟩
  | .hbm, ⟨3, _⟩ => ⟨S4096x32x1, .i32⟩
  | .hbm, ⟨4, _⟩ => ⟨S1x1x1024, .i32⟩
  | .hbm, ⟨5, _⟩ => ⟨S4096x32x1024, .i32⟩
  | .hbm, ⟨6, _⟩ => ⟨S4096x32x1024, .i32⟩
  | .hbm, ⟨7, _⟩ => ⟨S4096x32x1024, .i1⟩
  | .hbm, ⟨8, _⟩ => ⟨S4096x32x1024, .f32⟩
  | .hbm, ⟨9, _⟩ => ⟨S4096x32768, .f32⟩
  | .hbm, ⟨10, _⟩ => ⟨S32768x1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | _, _ => ⟨S4096x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  bcast_S4096x32_S4096x32x1_0_1 : S4096x32.BroadcastsInDim S4096x32x1 (![0, 1] : Fin 2 → Fin S4096x32x1.rank)
  bcast_S4096x32x1_S4096x32x1024_0_1_2 : S4096x32x1.BroadcastsInDim S4096x32x1024 (![0, 1, 2] : Fin 3 → Fin S4096x32x1024.rank)
  bcast_S1x1x1024_S4096x32x1024_0_1_2 : S1x1x1024.BroadcastsInDim S4096x32x1024 (![0, 1, 2] : Fin 3 → Fin S4096x32x1024.rank)
  shapeCasts_S4096x32x1024_S4096x32768 : S4096x32x1024.ShapeCasts S4096x32768
  transposes_S1024x32768_S32768x1024_1_0 : S1024x32768.Transposes [1, 0] S32768x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096 : S_.BroadcastsInDim S4096 (![] : Fin 0 → Fin S4096.rank)
  dot_S4096x32768_S32768x1024_S4096x1024_1_0_0_1_n_n_wf : DotDims.WF S4096x32768 S32768x1024 S4096x1024 [1] [0] [0] [1] [] []

variable [Facts₀]

def dot_S4096x32768_S32768x1024_S4096x1024_1_0_0_1_n_n : DotDims S4096x32768 S32768x1024 S4096x1024 where
  lhsContracting := [1]
  rhsContracting := [0]
  lhsNonContracting := [0]
  rhsNonContracting := [1]
  lhsBatch := []
  rhsBatch := []
  wf := dot_S4096x32768_S32768x1024_S4096x1024_1_0_0_1_n_n_wf

class Facts : Prop extends Facts₀ where

variable [Facts]
-- ==== Proof.Spec.lean ====
/-
  The function both programs compute, and the one law between their two arrangements of it.

  For a batch row `b`, an output column `n` and a sequence position `s`, write
      step b n s = ∑_{v < 1024} [x(b, s) = v] · W(n, 1024·s + v)
  (the bracket is 1 when the index equals the lane number and 0 otherwise — for an index outside 0..1023 the whole
  row of brackets is zero).  The kernel keeps a running sum over the positions in order,
      run 0 = 0 + step 0,   run (s+1) = run s + step (s+1),
  and adds the bias after position 31.  The reference builds the 32768-wide one-hot row first and contracts it with
  `W` in one sum over `k = 1024·s + v`, then adds the bias.  The two agree because a finite sum over the extended reals
  may be regrouped: splitting `k` into `(s, v)` is a bijection of index sets, and addition there is commutative
  and associative with `0` neutral.  No distributivity or cancellation is used, so nothing needs the inputs finite.
-/
import Idealize.ShloMosaic.PureOps.Ideal
import Idealize.ShloMosaic.Lib.ValueIdx

noncomputable section

open scoped BigOperators

namespace Cert.EmbedSum

open Idealize.ShloMosaic Idealize.ShloMosaic.ValueIdx

/-- The index array, the weights and the bias, by their literal shapes. -/
abbrev Ids := (⟨2, ![4096, 32]⟩ : Shape).Idx → BitVec 32
abbrev Wts := (⟨2, ![1024, 32768]⟩ : Shape).Idx → Ideal .f32
abbrev Bias := (⟨1, ![1024]⟩ : Shape).Idx → Ideal .f32

/-- One entry of a one-hot row: 1 if the two 32-bit words are equal, 0 if not. -/
def hot (a b : BitVec 32) : Ideal .f32 := (((IntOp.cmpi .eq a b).toNat : ℝ) : EReal)

/-- A one-bit word widened with zeros and read signed is the bit itself: the kernel converts its comparison that way,
    the reference reads the bit unsigned. -/
theorem signed_zext_bit (c : BitVec 1) : (((c.setWidth 32).toInt : ℝ) : EReal) = ((c.toNat : ℝ) : EReal) := by
  have h : ∀ d : BitVec 1, (d.setWidth 32).toInt = (d.toNat : ℤ) := by decide
  rw [h c, Int.cast_natCast]

/-- Column `1024·s + v` of the weights. -/
def col (s : Fin 32) (v : Fin 1024) : Fin 32768 :=
  ⟨s.val * 1024 + v.val, by have := s.isLt; have := v.isLt; omega⟩

/-- The term of the reference's one contraction at `k`: the one-hot row of batch row `b` at `k` — position `k / 1024`,
    lane `k % 1024` — times the weight. -/
def term (x : Ids) (W : Wts) (b : Fin 4096) (n : Fin 1024) (k : Fin 32768) : Ideal .f32 :=
  hot (x (ix2 b ⟨k.val / 1024, by have := k.isLt; omega⟩)) (BitVec.ofNat 32 (k.val % 1024)) * W (ix2 n k)

/-- Position `s`'s contribution: the one-hot row of `x(b, s)` against the 1024 weights of that position. -/
def step (x : Ids) (W : Wts) (b : Fin 4096) (n : Fin 1024) (s : Fin 32) : Ideal .f32 :=
  ∑ v : Fin 1024, hot (x (ix2 b s)) (BitVec.ofNat 32 v.val) * W (ix2 n (col s v))

/-- The same over all naturals (zero past the last position), so that a running sum can be stated by recursion. -/
def stepN (x : Ids) (W : Wts) (b : Fin 4096) (n : Fin 1024) (s : ℕ) : Ideal .f32 :=
  if h : s < 32 then step x W b n ⟨s, h⟩ else 0

/-- The kernel's running sum after position `s`, in its own order: `0 + step 0`, then `+ step (s+1)`. -/
def run (x : Ids) (W : Wts) (b : Fin 4096) (n : Fin 1024) : ℕ → Ideal .f32
  | 0 => 0 + stepN x W b n 0
  | s + 1 => run x W b n s + stepN x W b n (s + 1)

/-- THE RESULT, in the reference's arrangement: one sum over the 32768 columns, then the bias. -/
def G (x : Ids) (W : Wts) (bias : Bias) : (⟨2, ![4096, 1024]⟩ : Shape).Idx → Ideal .f32 :=
  fun j => (∑ k : Fin 32768, term x W (j 0) (j 1) k) + bias (ix1 (j 1))

/-- A position's contribution is the reference's terms at that position's 1024 columns. -/
theorem step_eq (x : Ids) (W : Wts) (b : Fin 4096) (n : Fin 1024) (s : Fin 32) :
    step x W b n s = ∑ v : Fin 1024, term x W b n (col s v) := by
  unfold step term
  refine Finset.sum_congr rfl fun v _ => ?_
  have hs := s.isLt
  have hv := v.isLt
  have e1 : (⟨(col s v).val / 1024, by have := (col s v).isLt; omega⟩ : Fin 32) = s :=
    Fin.ext (by show (s.val * 1024 + v.val) / 1024 = s.val; omega)
  have e2 : (col s v).val % 1024 = v.val := by show (s.val * 1024 + v.val) % 1024 = v.val; omega
  rw [e1, e2]

/-- Regrouping: a sum over the 32768 columns is the sum over the positions of the sums over the lanes. -/
theorem sum_cols (f : Fin 32768 → Ideal .f32) : ∑ k, f k = ∑ s : Fin 32, ∑ v : Fin 1024, f (col s v) := by
  have e : ∀ p : Fin 32 × Fin 1024, (finProdFinEquiv p : Fin (32 * 1024)) = col p.1 p.2 := fun p =>
    Fin.ext (by show p.2.val + 1024 * p.1.val = p.1.val * 1024 + p.2.val; omega)
  rw [← Equiv.sum_comp (finProdFinEquiv : Fin 32 × Fin 1024 ≃ Fin (32 * 1024)) f, Fintype.sum_prod_type]
  exact Finset.sum_congr rfl fun s _ => Finset.sum_congr rfl fun v _ => congrArg f (e (s, v))

/-- The running sum after position `s` is the plain sum of the contributions so far. -/
theorem run_eq_sum (x : Ids) (W : Wts) (b : Fin 4096) (n : Fin 1024) :
    ∀ s : ℕ, run x W b n s = ∑ r ∈ Finset.range (s + 1), stepN x W b n r
  | 0 => by rw [run, zero_add, Finset.sum_range_one]
  | s + 1 => by rw [run, run_eq_sum x W b n s, Finset.sum_range_succ _ (s + 1)]

/-- THE LAW: after the last position the kernel's running sum is the reference's one contraction. -/
theorem run_last (x : Ids) (W : Wts) (b : Fin 4096) (n : Fin 1024) :
    run x W b n 31 = ∑ k : Fin 32768, term x W b n k := by
  rw [run_eq_sum, sum_cols, Finset.sum_range]
  refine Finset.sum_congr rfl fun s _ => ?_
  rw [← step_eq]
  unfold stepN
  rw [dif_pos s.isLt]

end Cert.EmbedSum

end
-- ==== Proof.RefSide.lean ====
/-
  The reference computes `G`.  Read at `(b, n)`, its last stage is the sum over the 32768 columns `k` of the one-hot
  board at `(b, k)` times the transposed weights at `(k, n)`, plus the bias broadcast along the rows.  The board is the
  `4096 × 32 × 1024` comparison of the indices with the lane numbers, flattened row-major to `4096 × 32768`: its entry
  `(b, k)` is the comparison at position `k / 1024` and lane `k % 1024`.  The transpose reads `W(n, k)`.  That is the
  term of `G`, column by column.
-/
import proofs.«167049_j19018115187270_2_alg».proof.Defs
import proofs.«167049_j19018115187270_2_alg».proof.Proof.Gen.ReferenceIdeal.Read
import proofs.«167049_j19018115187270_2_alg».proof.Proof.Spec
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

open scoped BigOperators

namespace Cert.ReferenceIdeal.RefSide

open Cert.ReferenceIdeal Cert.ReferenceIdeal.Read Cert.EmbedSum Idealize.ShloMosaic.ValueIdx

/-- The reference's result stage is `G` of its three arguments. -/
theorem result_eq (x0 : (⟨S4096x32, .i32⟩ : BufTy).Contents (Elt Ideal)) (x1 : (⟨S1024x32768, .f32⟩ : BufTy).Contents (Elt Ideal))
    (x2 : (⟨S1024, .f32⟩ : BufTy).Contents (Elt Ideal)) :
    val_main_v6 (F := Ideal) x0 x1 x2 = G x0 x1 x2 := by
  funext i
  obtain ⟨b, n, rfl⟩ : ∃ (b : Fin 4096) (n : Fin 1024), i = ix2 b n := ⟨i 0, i 1, eq_ix2 i⟩
  have hb := b.isLt
  rw [val_main_v6_apply, val_main_v3_apply, val_main_v5_apply, val_main_v4_apply]
  show (∑ k : Fin 32768, _) + _ = (∑ k : Fin 32768, term x0 x1 b n k) + x2 (ix1 n)
  refine congrArg₂ (· + ·) (Finset.sum_congr rfl fun k _ => ?_) (congrArg x2 (funext fun a => Fin.ext (by
    match a with
    | ⟨0, _⟩ => rfl)))
  have hk := k.isLt
  rw [val_main_v1_apply, val_main_v0_apply, val_main_call0_v4_apply, val_main_call0_v2_apply, val_main_call0_v0_apply,
    val_main_call0_v3_apply, val_main_call0_v1_apply, val_main_v2_apply]
  have ea : idx_main_call0_v0 (idx_main_call0_v2 (idx_main_v1 (lidx_main_v3 (ix2 b n) k)))
      = ix2 b (⟨k.val / 1024, by omega⟩ : Fin 32) := funext fun a => Fin.ext (by
    match a with
    | ⟨0, _⟩ => show (b.val * 32768 + k.val) / 32768 = b.val; omega
    | ⟨1, _⟩ => show (b.val * 32768 + k.val) / 1024 % 32 = k.val / 1024; omega)
  have eb : ((idx_main_call0_v3 (idx_main_v1 (lidx_main_v3 (ix2 b n) k))) 2).val = k.val % 1024 := by
    show (b.val * 32768 + k.val) % 1024 = k.val % 1024; omega
  have ec : idx_main_v2 (ridx_main_v3 (ix2 b n) k) = ix2 n k := funext fun a => Fin.ext (by
    match a with
    | ⟨0, _⟩ => rfl
    | ⟨1, _⟩ => rfl)
  rw [ea, eb, ec]
  rfl

end Cert.ReferenceIdeal.RefSide

end
-- ==== Proof.Pieces.lean ====
/-
  What one run of the kernel body leaves in the output block, case by case, as a pure function of the blocks it was
  called with.  The body keeps a running sum in its output block over the 32 sequence positions `s`:
    * at `s = 0` it first clears the block, so it leaves  `0 + step`;
    * at `0 < s < 31` it leaves                              `acc + step`;
    * at `s = 31` it adds the bias row last, so it leaves   `(acc + step) + bias`,
  where `step` is the product of the one-hot rows of position `s` (row `s` of the index block compared with the
  lane number) with the weight block, and `acc` is what the previous position left.  Each statement holds for every
  float instance: only the order of the stores and loads matters here, not the arithmetic.
-/
import proofs.«167049_j19018115187270_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The two zero offsets of a whole-block access, as a constant function. -/
theorem zero_off : (![0, 0] : Fin 2 → Nat) = fun _ => 0 := funext fun a => by fin_cases a <;> rfl

/-- Row `s` of the 32-row index block, `s` the point's sequence position: the 1024 indices the body compares with the
    lane numbers at this point. -/
abbrev seqRow (i : grid0.Coords) (x0 : Vec F S32x1024 .i32) : Vec F S1x1024 .i32 :=
  View.ld x0 (Rect.unit (s := S32x1024) (k0_off1 i) S1x1024.size (Cert.KernelIdeal.Facts₀.k0_off1_inb i))

/-- A middle position: the block held `xo`; it now holds `xo + step`. -/
theorem middle (c : Dev nD) (i : grid0.Coords) (a2 : Memref sig .tc .vmem S32x1024 .i32) (h2 : a2.IsWhole) (a3 : Memref sig .tc .vmem S1024x1024 .bf16) (h3 : a3.IsWhole) (a4 : Memref sig .tc .vmem S1x1024 .f32) (h4 : a4.IsWhole) (a5 : Memref sig .tc .vmem S1024x1024 .f32) (h5 : a5.IsWhole) (hc0 : ¬cond0_0 i) (hc1 : ¬cond0_1 i)
    (x0 : Vec F S32x1024 .i32) (x1 : Vec F S1024x1024 .bf16) (x2 : Vec F S1x1024 .f32) (xo : Vec F S1024x1024 .f32) :
    out0_B_3 c i a2 h2 a3 h3 a4 h4 a5 h5 hc0 hc1 x0 x1 x2 xo = k0_pay2 (seqRow i x0) x1 xo := by
  unfold out0_B_3
  rw [View.read_writes_eq_canon _ _ _ (cover0_B_3 c i a2 h2 a3 h3 a4 h4 a5 h5 hc0 hc1 x0 x1 x2 xo)]
  unfold kernelRun0_B
  dsimp only
  rw [View.canon_unit_zero zero_off]
  simp only [View.readAt_eq_ld, h2.read_unread, h3.read_unread, h5.read_unread, View.ld_unit_zero (S := S1024x1024) zero_off]

/-- The first position: the block is cleared, read back, and holds `0 + step`. -/
theorem first (c : Dev nD) (i : grid0.Coords) (a2 : Memref sig .tc .vmem S32x1024 .i32) (h2 : a2.IsWhole) (a3 : Memref sig .tc .vmem S1024x1024 .bf16) (h3 : a3.IsWhole) (a4 : Memref sig .tc .vmem S1x1024 .f32) (h4 : a4.IsWhole) (a5 : Memref sig .tc .vmem S1024x1024 .f32) (h5 : a5.IsWhole) (hc0 : cond0_0 i) (hc1 : ¬cond0_1 i)
    (x0 : Vec F S32x1024 .i32) (x1 : Vec F S1024x1024 .bf16) (x2 : Vec F S1x1024 .f32) :
    out0_A_3 c i a2 h2 a3 h3 a4 h4 a5 h5 hc0 hc1 x0 x1 x2 = k0_pay2 (seqRow i x0) x1 k0_pay1 := by
  unfold out0_A_3
  rw [View.read_writes_eq_canon _ _ _ (cover0_A_3 c i a2 h2 a3 h3 a4 h4 a5 h5 hc0 hc1 x0 x1 x2)]
  unfold kernelRun0_A
  dsimp only
  sl_unfold_words
  rw [View.canon_cons_unit_zero (S := S1024x1024) zero_off, View.readCov_unit_zero (S := S1024x1024) _ zero_off]
  simp only [View.readAt_eq_ld, h2.read_unread, h3.read_unread, View.ld_unit_zero (S := S1024x1024) zero_off]
  rfl

/-- The last position: the block held `xo`; the body stores `xo + step`, reads it back and adds the bias row. -/
theorem last (c : Dev nD) (i : grid0.Coords) (a2 : Memref sig .tc .vmem S32x1024 .i32) (h2 : a2.IsWhole) (a3 : Memref sig .tc .vmem S1024x1024 .bf16) (h3 : a3.IsWhole) (a4 : Memref sig .tc .vmem S1x1024 .f32) (h4 : a4.IsWhole) (a5 : Memref sig .tc .vmem S1024x1024 .f32) (h5 : a5.IsWhole) (hc0 : ¬cond0_0 i) (hc1 : cond0_1 i)
    (x0 : Vec F S32x1024 .i32) (x1 : Vec F S1024x1024 .bf16) (x2 : Vec F S1x1024 .f32) (xo : Vec F S1024x1024 .f32) :
    out0_C_3 c i a2 h2 a3 h3 a4 h4 a5 h5 hc0 hc1 x0 x1 x2 xo = k0_pay3 (k0_pay2 (seqRow i x0) x1 xo) x2 := by
  unfold out0_C_3
  rw [View.read_writes_eq_canon _ _ _ (cover0_C_3 c i a2 h2 a3 h3 a4 h4 a5 h5 hc0 hc1 x0 x1 x2 xo)]
  unfold kernelRun0_C
  dsimp only
  sl_unfold_words
  rw [View.canon_cons_unit_zero (S := S1024x1024) zero_off, View.readCov_unit_zero (S := S1024x1024) _ zero_off]
  simp only [View.readAt_eq_ld, h2.read_unread, h3.read_unread, h4.read_unread, h5.read_unread, View.ld_unit_zero (S := S1024x1024) zero_off, View.ld_unit_zero (S := S1x1024) zero_off]
  rfl

end Cert.KernelIdeal.Pieces

end
-- ==== Proof.LibColumn.lean ====
/-
  Two layout operations read at an index, for a COLUMN vector: a length-`a` vector viewed as an `a × 1` column, and
  such a column repeated along the second axis to `a × b`.  Both are re-indexings: no element changes.  General in the
  sizes and in the element type; they complement the row forms (`1 × a`) of the layout library.
-/
import Idealize.ShloMosaic.Lib.Pipeline.Value
import Idealize.ShloMosaic.Lib.ValueIdx

noncomputable section

namespace Cert.LibColumn

open Idealize.ShloMosaic Idealize.ShloMosaic.ValueIdx

variable {α : Type}

/-- A length-`a` vector cast to an `a × 1` column reads, at `(i, u)`, the vector at `i`: the row-major position of
    `(i, u)` in `a × 1` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at `p`: every lane of a row repeats the row's
    one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Payload.lean ====
/-
  The body's three stored values read at one entry `(p, q)` of the 1024 × 1024 output block, over the extended reals.
    * the cleared block is 0 everywhere;
    * the accumulating store is the old entry plus the product of row `p` of the one-hot matrix with row `q` of the
      weight block: ∑_{v < 1024} [r(p) = v] · w(q, v), where `r` is the index row of this position.  The one-hot matrix
      is built by comparing the index column, repeated along the lanes, with the lane number, widening the bit and
      converting it to a float; a change of float format is the identity here, and the product into a zero
      accumulator is the plain sum;
    * the closing store adds entry `q` of the bias row.
-/
import proofs.«167049_j19018115187270_2_alg».proof.Proof.Gen.KernelIdeal.Skeleton
import proofs.«167049_j19018115187270_2_alg».proof.Proof.Spec
import proofs.«167049_j19018115187270_2_alg».proof.Proof.LibColumn
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

open scoped BigOperators

namespace Cert.KernelIdeal.Payload

open Cert.KernelIdeal Cert.KernelIdeal.Gen Cert.EmbedSum Cert.LibColumn Idealize.ShloMosaic.ValueIdx

/-- The block product's dimension numbers: both operands are contracted along their second axis. -/
abbrev D := dot_S1024x1024_S1024x1024_S1024x1024_1_1_0_0_n_n

theorem lhs_row (j : S1024x1024.Idx) (k : D.contr.Idx) : (D.lhsIdx j k 0).val = (j 0).val := by
  unfold DotDims.lhsIdx
  rw [dif_neg (show ¬(0 : Fin S1024x1024.rank) ∈ D.lhsBatch by decide), dif_pos (show (0 : Fin S1024x1024.rank) ∈ D.lhsNonContracting by decide)]
  rfl
theorem lhs_lane (j : S1024x1024.Idx) (k : D.contr.Idx) : (D.lhsIdx j k 1).val = (k ⟨0, by decide⟩).val :=
  D.lhsIdx_val_of_single rfl j k
theorem rhs_row (j : S1024x1024.Idx) (k : D.contr.Idx) : (D.rhsIdx j k 0).val = (j 1).val := by
  unfold DotDims.rhsIdx
  rw [dif_neg (show ¬(0 : Fin S1024x1024.rank) ∈ D.rhsBatch by decide), dif_pos (show (0 : Fin S1024x1024.rank) ∈ D.rhsNonContracting by decide)]
  rfl
theorem rhs_lane (j : S1024x1024.Idx) (k : D.contr.Idx) : (D.rhsIdx j k 1).val = (k ⟨0, by decide⟩).val :=
  D.rhsIdx_val_of_single rfl j k

/-- The block product into a zero accumulator, at `(p, q)`: row `p` of the left operand against row `q` of the right. -/
theorem product_at (l r : FVec Ideal S1024x1024 .bf16) (p q : Fin 1024) :
    matmul D none l r (constant (F := Ideal) S1024x1024 .f32 0x00000000#32) (ix2 p q) = ∑ v : Fin 1024, l (ix2 p v) * r (ix2 q v) := by
  refine (Ideal.matmul_constant_zero_apply D none l r (ix2 p q)).trans ?_
  rw [← Equiv.sum_comp (contrEquiv1 D 1024 rfl rfl).symm]
  refine Finset.sum_congr rfl fun v _ => ?_
  have hv := contrEquiv1_symm_val D 1024 rfl rfl v
  have el : D.lhsIdx (ix2 p q) ((contrEquiv1 D 1024 rfl rfl).symm v) = ix2 p v := funext fun a => Fin.ext (by
    match a with
    | ⟨0, _⟩ => exact lhs_row _ _
    | ⟨1, _⟩ => exact (lhs_lane _ _).trans hv)
  have er : D.rhsIdx (ix2 p q) ((contrEquiv1 D 1024 rfl rfl).symm v) = ix2 q v := funext fun a => Fin.ext (by
    match a with
    | ⟨0, _⟩ => exact rhs_row _ _
    | ⟨1, _⟩ => exact (rhs_lane _ _).trans hv)
  rw [el, er]

/-- One entry of the one-hot matrix: 1 when the index of row `p` is the lane number `v`, else 0. -/
theorem onehot_at (r : Vec Ideal S1x1024 .i32) (h1 : S1x1024.ShapeCasts S1024) (h2 : S1024.ShapeCasts S1024x1)
    (h3 : S1024x1.Broadcasts S1024x1024) (h4 : S1024x1024.Iotas .tc 32 [1]) (h5 : 1 < 32) (h6 : FTy.bits .bf16 < FTy.bits .f32)
    (p v : Fin 1024) :
    (truncf .bf16 (sitofp (F := Ideal) .f32 (extui 32 (cmpi .eq (broadcastTo S1024x1024 (shapeCast S1024x1 (shapeCast S1024 r h1) h2) h3)
      (iota .tc S1024x1024 32 [1] h4)) h5)) h6 : FVec Ideal S1024x1024 .bf16) (ix2 p v) = hot (r (ix2 0 p)) (BitVec.ofNat 32 v.val) := by
  have e1 : broadcastTo S1024x1024 (shapeCast S1024x1 (shapeCast S1024 r h1) h2) h3 (ix2 p v) = r (ix2 0 p) :=
    (broadcastTo_a1_ab_apply _ h3 p v).trans ((shapeCast_a_a1_apply _ h2 p 0).trans (shapeCast_1a_a_apply r h1 p))
  have e2 : iota .tc S1024x1024 32 [1] h4 (ix2 p v) = BitVec.ofNat 32 v.val := by
    show BitVec.ofNat 32 (0 * 1024 + v.val) = _
    rw [Nat.zero_mul, Nat.zero_add]
  show ((((IntOp.cmpi .eq (broadcastTo S1024x1024 (shapeCast S1024x1 (shapeCast S1024 r h1) h2) h3 (ix2 p v))
    (iota .tc S1024x1024 32 [1] h4 (ix2 p v))).setWidth 32).toInt : ℝ) : EReal) = _
  rw [e1, e2, signed_zext_bit]
  rfl

/-- The cleared block. -/
theorem cleared_at (p q : Fin 1024) : k0_pay1 (F := Ideal) (ix2 p q) = 0 := Ideal.ofBits_zero_f32

/-- The accumulating store at `(p, q)`. -/
theorem accum_at (r : Vec Ideal S1x1024 .i32) (w : Vec Ideal S1024x1024 .bf16) (xo : Vec Ideal S1024x1024 .f32) (p q : Fin 1024) :
    k0_pay2 (F := Ideal) r w xo (ix2 p q) = xo (ix2 p q) + ∑ v : Fin 1024, hot (r (ix2 0 p)) (BitVec.ofNat 32 v.val) * w (ix2 q v) := by
  unfold k0_pay2
  show shapeCast S1024x1024 xo _ (ix2 p q) + matmul (F := Ideal) D none _ _ _ (ix2 p q) = _
  refine congrArg₂ (· + ·) (congrFun (shapeCast_self xo _) (ix2 p q)) ?_
  refine (product_at _ _ p q).trans (Finset.sum_congr rfl fun v _ => congrArg₂ (· * ·) (onehot_at r _ _ _ _ _ _ p v) (congrFun (shapeCast_self w _) (ix2 q v)))

/-- The closing store at `(p, q)`: the entry plus the bias row at `q`. -/
theorem biased_at (a : Vec Ideal S1024x1024 .f32) (b : Vec Ideal S1x1024 .f32) (p q : Fin 1024) :
    k0_pay3 (F := Ideal) a b (ix2 p q) = a (ix2 p q) + b (ix2 0 q) := by
  unfold k0_pay3
  show shapeCast S1024x1024 a _ (ix2 p q) + broadcastTo S1024x1024 (shapeCast S1x1024 b _) _ (ix2 p q) = _
  refine congrArg₂ (· + ·) (congrFun (shapeCast_self a _) (ix2 p q)) ((broadcastTo_1b_ab_apply _ _ p q).trans (congrFun (shapeCast_self b _) _))

end Cert.KernelIdeal.Payload

end
-- ==== Proof.Blocks.lean ====
/-
  What the body is handed at grid point `t`, in terms of the three argument arrays.  The 128 points are the pairs
  (batch tile `t / 32`, sequence position `t % 32`), the position running fastest.
    * The index window stages the TRANSPOSED index array `32 × 4096`; its block at `t` is all 32 positions of the
      1024 batch rows of tile `t / 32`, so entry `(s, p)` is `x(1024·(t/32) + p, s)`; the body reads row `t % 32` of it.
    * The weight window stages the weights with their float format changed, which is the identity over the extended
      reals; its block at `t` is the 1024 columns of position `t % 32`: entry `(q, v)` is `W(q, 1024·(t%32) + v)`.
    * The bias window stages the bias as one row, the same block at every point: entry `(0, q)` is `b(q)`.
  The host operations before the kernel — a transpose, a reshape, a format change — only re-index.
-/
import proofs.«167049_j19018115187270_2_alg».proof.Proof.Gen.KernelIdeal.Frame
import proofs.«167049_j19018115187270_2_alg».proof.Proof.Pieces
import proofs.«167049_j19018115187270_2_alg».proof.Proof.Spec
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Pieces Cert.EmbedSum Idealize.ShloMosaic.ValueIdx

variable (m : (ℓ : Loc nD τ sig) → Buf (Elt Ideal) ℓ)

/-- The printed index maps of the four windows, decided over the grid. -/
theorem index_facts : ∀ t : Fin cfg0.N,
    win0_0.index t (0 : Fin 2) = 0 ∧ win0_0.index t (1 : Fin 2) = t.val / 32
    ∧ win0_1.index t (0 : Fin 2) = 0 ∧ win0_1.index t (1 : Fin 2) = t.val % 32
    ∧ win0_2.index t (0 : Fin 2) = 0 ∧ win0_2.index t (1 : Fin 2) = 0
    ∧ win0_3.index t (0 : Fin 2) = t.val / 32 ∧ win0_3.index t (1 : Fin 2) = 0 :=
  (by decide +kernel : ∀ t : Fin grid0.N, _)

/-- The second grid coordinate is the sequence position. -/
theorem coord_pos : ∀ t : Fin cfg0.N, ((grid0.coords t) 1).val = t.val % 32 :=
  (by decide +kernel : ∀ t : Fin grid0.N, _)

theorem lt_points (t : Fin cfg0.N) : t.val < 128 := lt_of_lt_of_eq t.isLt (show cfg0.N = 128 from N_0)

/-- The batch row that row `p` of point `t`'s tile is. -/
def rowOf (t : Fin cfg0.N) (p : Fin 1024) : Fin 4096 :=
  ⟨t.val / 32 * 1024 + p.val, by have := lt_points t; have := p.isLt; omega⟩
/-- The sequence position of point `t`. -/
def posOf (t : Fin cfg0.N) : Fin 32 := ⟨t.val % 32, Nat.mod_lt _ (by decide)⟩

/-! ## The arrays as the kernel finds them -/

theorem ids_at (c : Dev nD) (s : Fin 32) (g : Fin 4096) :
    (V m c main_v0 : S32x4096.Idx → BitVec 32) (ix2 s g) = m ((c : Thread nD τ).loc main_arg0) (ix2 g s) := by
  have e : (V m c main_v0 : S32x4096.Idx → BitVec 32)
      = transpose S32x4096 [1, 0] (m ((c : Thread nD τ).loc main_arg0)) transposes_S4096x32_S32x4096_1_0 := by
    show StableHlo.after hostOps0 (fun b => m (c, b)) (Proc.devRef .tc main_v0) = _
    after_results <;> rfl
  rw [e]
  exact transpose_ix2_apply _ _ s g

theorem wts_at (c : Dev nD) (i : S1024x32768.Idx) :
    (V m c main_v2 : S1024x32768.Idx → Ideal .bf16) i = m ((c : Thread nD τ).loc main_arg1) i := by
  have e : (V m c main_v2 : S1024x32768.Idx → Ideal .bf16)
      = truncf (F := Ideal) .bf16 (m ((c : Thread nD τ).loc main_arg1)) bitsLt_bf16_f32 := by
    show StableHlo.after hostOps0 (fun b => m (c, b)) (Proc.devRef .tc main_v2) = _
    after_results <;> rfl
  rw [e]
  rfl

theorem bias_at (c : Dev nD) (u : Fin 1) (n : Fin 1024) :
    (V m c main_v1 : S1x1024.Idx → Ideal .f32) (ix2 u n) = m ((c : Thread nD τ).loc main_arg2) (ix1 n) := by
  have e : (V m c main_v1 : S1x1024.Idx → Ideal .f32)
      = shapeCast S1x1024 (m ((c : Thread nD τ).loc main_arg2)) shapeCasts_S1024_S1x1024 := by
    show StableHlo.after hostOps0 (fun b => m (c, b)) (Proc.devRef .tc main_v1) = _
    after_results <;> rfl
  rw [e]
  exact shapeCast_a_1a_apply _ _ u n

/-! ## The blocks at a point -/

theorem ids_block (c : Dev nD) (t : Fin cfg0.N) (s : Fin 32) (p : Fin 1024) :
    (iblk m c 0 t : Vec Ideal S32x1024 .i32) (ix2 s p) = m ((c : Thread nD τ).loc main_arg0) (ix2 (rowOf t p) s) := by
  obtain ⟨e0, e1, -⟩ := index_facts t
  show (V m c main_v0 : S32x4096.Idx → BitVec 32) (((cfg0.win 0).blk t).view.emb (ix2 s p)) = _
  have e : ((cfg0.win 0).blk t).view.emb (ix2 s p) = ix2 s (rowOf t p) := funext fun a => Fin.ext (by
    match a with
    | ⟨0, _⟩ => show win0_0.index t (0 : Fin 2) * 32 + 1 * s.val = s.val; omega
    | ⟨1, _⟩ => show win0_0.index t (1 : Fin 2) * 1024 + 1 * p.val = t.val / 32 * 1024 + p.val; omega)
  rw [e]
  exact ids_at m c s (rowOf t p)

theorem wts_block (c : Dev nD) (t : Fin cfg0.N) (q v : Fin 1024) :
    (iblk m c 1 t : Vec Ideal S1024x1024 .bf16) (ix2 q v) = m ((c : Thread nD τ).loc main_arg1) (ix2 q (col (posOf t) v)) := by
  obtain ⟨-, -, e0, e1, -⟩ := index_facts t
  show (V m c main_v2 : S1024x32768.Idx → Ideal .bf16) (((cfg0.win 1).blk t).view.emb (ix2 q v)) = _
  have e : ((cfg0.win 1).blk t).view.emb (ix2 q v) = ix2 q (col (posOf t) v) := funext fun a => Fin.ext (by
    match a with
    | ⟨0, _⟩ => show win0_1.index t (0 : Fin 2) * 1024 + 1 * q.val = q.val; omega
    | ⟨1, _⟩ => show win0_1.index t (1 : Fin 2) * 1024 + 1 * v.val = t.val % 32 * 1024 + v.val; omega)
  rw [e]
  exact wts_at m c _

theorem bias_block (c : Dev nD) (t : Fin cfg0.N) (q : Fin 1024) :
    (iblk m c 2 t : Vec Ideal S1x1024 .f32) (ix2 (0 : Fin 1) q) = m ((c : Thread nD τ).loc main_arg2) (ix1 q) := by
  obtain ⟨-, -, -, -, e0, e1, -⟩ := index_facts t
  show (V m c main_v1 : S1x1024.Idx → Ideal .f32) (((cfg0.win 2).blk t).view.emb (ix2 (0 : Fin 1) q)) = _
  have e : ((cfg0.win 2).blk t).view.emb (ix2 (0 : Fin 1) q) = ix2 (0 : Fin 1) q := funext fun a => Fin.ext (by
    match a with
    | ⟨0, _⟩ => show win0_2.index t (0 : Fin 2) * 1 + 1 * 0 = 0; omega
    | ⟨1, _⟩ => show win0_2.index t (1 : Fin 2) * 1024 + 1 * q.val = q.val; omega)
  rw [e]
  exact bias_at m c 0 q

/-- The row of the index block the body reads at a point of position `s`. -/
theorem seqRow_at (i : grid0.Coords) (s : Fin 32) (hs : (i 1).val = s.val) (x0 : Vec Ideal S32x1024 .i32) (p : Fin 1024) :
    seqRow i x0 (ix2 (0 : Fin 1) p) = x0 (ix2 s p) := by
  show x0 ((Rect.unit (s := S32x1024) (k0_off1 i) S1x1024.size (k0_off1_inb i)).idx (ix2 (0 : Fin 1) p)) = _
  refine congrArg x0 (funext fun a => Fin.ext ?_)
  match a with
  | ⟨0, _⟩ => show k0_off1 i 0 + 1 * 0 = s.val; rw [k0_off1_eq]; show (i 1).val + 1 * 0 = s.val; omega
  | ⟨1, _⟩ => show k0_off1 i 1 + 1 * p.val = p.val; rw [k0_off1_eq]; show 0 + 1 * p.val = p.val; omega

end Cert.KernelIdeal.Blocks

end
-- ==== Proof.Chain.lean ====
/-
  What the output block holds after every grid point.  Write a point as `t = 32·tile + s`.  For the entry `(p, q)` of
  the block — batch row `b = 1024·tile + p`, output column `q` — the block holds after point `t`
      run b q s                  while `s < 31`   (the running sum of the contributions of positions `0 … s`),
      run b q 31 + bias(q)       at `s = 31`      (the finished entry).
  By induction on the point: at `s = 0` the body clears the block and adds the first contribution; at a later position
  the block still holds what the point before left (the output window's block index has not moved and nothing was
  written back), and the body adds the next contribution; at the last position it also adds the bias.  A batch tile's
  32 points are consecutive, so `t - 1` is the same tile whenever `s > 0`.
-/
import proofs.«167049_j19018115187270_2_alg».proof.Proof.Gen.KernelIdeal.Frame
import proofs.«167049_j19018115187270_2_alg».proof.Proof.Pieces
import proofs.«167049_j19018115187270_2_alg».proof.Proof.Payload
import proofs.«167049_j19018115187270_2_alg».proof.Proof.Blocks
import proofs.«167049_j19018115187270_2_alg».proof.Proof.Spec

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.KernelIdeal.Pieces Cert.KernelIdeal.Payload Cert.KernelIdeal.Blocks
open Cert.EmbedSum Idealize.ShloMosaic.ValueIdx

variable (m : (ℓ : Loc nD τ sig) → Buf (Elt Ideal) ℓ)

/-- The three argument arrays on core `c`. -/
abbrev ids (c : Dev nD) : Ids := m ((c : Thread nD τ).loc main_arg0)
abbrev wts (c : Dev nD) : Wts := m ((c : Thread nD τ).loc main_arg1)
abbrev bias (c : Dev nD) : Bias := m ((c : Thread nD τ).loc main_arg2)

/-- The accumulating store at point `t`, on the blocks of that point: the old entry plus the contribution of the
    point's position to the point's batch row. -/
theorem step_at (c : Dev nD) (t : Fin cfg0.N) (xo : Vec Ideal S1024x1024 .f32) (p q : Fin 1024) :
    k0_pay2 (F := Ideal) (seqRow (grid0.coords t) (iblk m c 0 t)) (iblk m c 1 t) xo (ix2 p q)
      = xo (ix2 p q) + stepN (ids m c) (wts m c) (rowOf t p) q (t.val % 32) := by
  refine (accum_at (seqRow (grid0.coords t) (iblk m c 0 t)) (iblk m c 1 t) xo p q).trans (congrArg (xo (ix2 p q) + ·) ?_)
  have hpos : t.val % 32 < 32 := Nat.mod_lt _ (by decide)
  unfold stepN
  rw [dif_pos hpos]
  unfold step
  refine Finset.sum_congr rfl fun v _ => congrArg₂ (· * ·) (congrArg (hot · (BitVec.ofNat 32 v.val)) ?_) (wts_block m c t q v)
  exact (seqRow_at (grid0.coords t) (posOf t) (coord_pos t) (iblk m c 0 t) p).trans (ids_block m c t (posOf t) p)

/-- What entry `(p, q)` of the output block holds after point `n`. -/
def held (c : Dev nD) (n : ℕ) (h : n < cfg0.N) (p q : Fin 1024) : Ideal .f32 :=
  if n % 32 = 31 then run (ids m c) (wts m c) (rowOf ⟨n, h⟩ p) q 31 + bias m c (ix1 q)
  else run (ids m c) (wts m c) (rowOf ⟨n, h⟩ p) q (n % 32)

/-- One more position of the same batch tile: the running sum advances by the new contribution. -/
theorem advance (c : Dev nD) (n : ℕ) (h' : n < cfg0.N) (h : n + 1 < cfg0.N) (h0 : ¬(n + 1) % 32 = 0) (p q : Fin 1024) :
    held m c n h' p q + stepN (ids m c) (wts m c) (rowOf ⟨n + 1, h⟩ p) q ((n + 1) % 32)
      = run (ids m c) (wts m c) (rowOf ⟨n + 1, h⟩ p) q ((n + 1) % 32) := by
  have e31 : ¬n % 32 = 31 := by omega
  have hrow : rowOf ⟨n, h'⟩ p = rowOf ⟨n + 1, h⟩ p :=
    Fin.ext (by show n / 32 * 1024 + p.val = (n + 1) / 32 * 1024 + p.val; omega)
  have hpos : (n + 1) % 32 = n % 32 + 1 := by omega
  unfold held
  rw [if_neg e31, hrow, hpos]
  rfl

/-- THE INVARIANT: the generated point-by-point contents of the output block are the running sum. -/
theorem outs_eq (c : Dev nD) : ∀ (n : ℕ) (h : n < cfg0.N) (p q : Fin 1024), outsAt0 m c n h (ix2 p q) = held m c n h p q := by
  intro n
  induction n with
  | zero =>
    intro h p q
    have h0 : (⟨0, h⟩ : Fin cfg0.N).val % 32 = 0 := rfl
    have h1 : ¬(⟨0, h⟩ : Fin cfg0.N).val % 32 = 31 := (by decide : ¬(0 % 32 = 31))
    rw [outsAt0_A m c ⟨0, h⟩ h0 h1]
    refine (congrFun (first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) _ _ (iblk m c 0 ⟨0, h⟩) (iblk m c 1 ⟨0, h⟩) (iblk m c 2 ⟨0, h⟩)) (ix2 p q)).trans ?_
    refine (step_at m c ⟨0, h⟩ (k0_pay1 (F := Ideal)) p q).trans ?_
    rw [cleared_at]
    rfl
  | succ n ih =>
    intro h p q
    have h' : n < cfg0.N := Nat.lt_of_succ_lt h
    by_cases h0 : (n + 1) % 32 = 0
    · have h1 : ¬(n + 1) % 32 = 31 := by omega
      rw [outsAt0_A m c ⟨n + 1, h⟩ h0 h1]
      refine (congrFun (first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) _ _ (iblk m c 0 ⟨n + 1, h⟩) (iblk m c 1 ⟨n + 1, h⟩) (iblk m c 2 ⟨n + 1, h⟩)) (ix2 p q)).trans ?_
      refine (step_at m c ⟨n + 1, h⟩ (k0_pay1 (F := Ideal)) p q).trans ?_
      rw [cleared_at]
      unfold held
      rw [if_neg h1]
      show 0 + stepN _ _ _ _ ((n + 1) % 32) = run _ _ _ _ ((n + 1) % 32)
      rw [h0]
      rfl
    · by_cases h1 : (n + 1) % 32 = 31
      · rw [outsAt0_C m c ⟨n + 1, h⟩ h0 h1]
        refine (congrFun (last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) _ _ (iblk m c 0 ⟨n + 1, h⟩) (iblk m c 1 ⟨n + 1, h⟩) (iblk m c 2 ⟨n + 1, h⟩) (outsAt0 m c n h')) (ix2 p q)).trans ?_
        refine (biased_at (k0_pay2 (seqRow (grid0.coords ⟨n + 1, h⟩) (iblk m c 0 ⟨n + 1, h⟩)) (iblk m c 1 ⟨n + 1, h⟩) (outsAt0 m c n h')) (iblk m c 2 ⟨n + 1, h⟩) p q).trans ?_
        rw [step_at m c ⟨n + 1, h⟩ (outsAt0 m c n h') p q, ih h' p q, bias_block m c ⟨n + 1, h⟩ q]
        show (held m c n h' p q + stepN _ _ _ _ ((n + 1) % 32)) + _ = held m c (n + 1) h p q
        rw [advance m c n h' h h0 p q]
        unfold held
        rw [if_pos h1, h1]
      · rw [outsAt0_B m c ⟨n + 1, h⟩ h0 h1]
        refine (congrFun (middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) _ _ (iblk m c 0 ⟨n + 1, h⟩) (iblk m c 1 ⟨n + 1, h⟩) (iblk m c 2 ⟨n + 1, h⟩) (outsAt0 m c n h')) (ix2 p q)).trans ?_
        rw [step_at m c ⟨n + 1, h⟩ (outsAt0 m c n h') p q, ih h' p q]
        show held m c n h' p q + stepN _ _ _ _ ((n + 1) % 32) = held m c (n + 1) h p q
        rw [advance m c n h' h h0 p q]
        unfold held
        rw [if_neg h1]

end Cert.KernelIdeal.Chain

end
-- ==== Proof.Final.lean ====
/-
  The kernel's result array after the run is `G` of the three arguments.
  The output window's block `(tile, 0)` is written back once, after the tile's last position (point `32·tile + 31`),
  and then holds the finished entries `run b q 31 + bias(q)`; by the law `run_last` that is `G` at batch row
  `b = 1024·tile + p`.  The four written-back blocks are the four row tiles of the `4096 × 1024` result, so every entry
  of the result is covered by exactly the write-back of its tile: row `b` by point `32·(b / 1024) + 31`.
  After the kernel the host writes two zero vectors; they do not touch the result or the arguments.
-/
import proofs.«167049_j19018115187270_2_alg».proof.Proof.Gen.KernelIdeal.Frame
import proofs.«167049_j19018115187270_2_alg».proof.Proof.Chain
import proofs.«167049_j19018115187270_2_alg».proof.Proof.Blocks
import proofs.«167049_j19018115187270_2_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

open scoped BigOperators

namespace Cert.KernelIdeal.Final

open Cert.KernelIdeal Cert.KernelIdeal.Gen Cert.KernelIdeal.Blocks Cert.KernelIdeal.Chain
open Cert.EmbedSum Idealize.ShloMosaic.ValueIdx

variable (m : (ℓ : Loc nD τ sig) → Buf (Elt Ideal) ℓ) (ρ : Dev nD → PrngReg)

/-- An entry of the result is in point `t`'s block iff each coordinate is in the block's range on its axis. -/
theorem mem_blk (t : Fin cfg0.N) (i : S4096x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3).slice (win0_3.rect t)).set ↔ _
  rw [View.set_slice_whole, Rect.mem_set_unit]
  exact Iff.rfl

/-- What a write-back writes is its block of `G`. -/
theorem flushed_eq (c : Dev nD) (t : Fin cfg0.N) (hf : (cfg0.win 3).flush t = true) :
    (dats m 0 c).flushed 3 t = ((cfg0.win 3).blk t).view.read (Elt Ideal) (G (ids m c) (wts m c) (bias m c)) := by
  have h31 : t.val % 32 = 31 := (flush0_3 t).mp hf
  obtain ⟨-, -, -, -, -, -, e0, e1⟩ := index_facts t
  show (cfg0.win 3).cut (grid0.coords t) ((dats m 0 c).after 3 t) = _
  rw [after0_3]
  refine funext fun (j : S1024x1024.Idx) => ?_
  obtain ⟨p, q, rfl⟩ : ∃ (p q : Fin 1024), j = ix2 p q := ⟨j 0, j 1, eq_ix2 j⟩
  show outsAt0 m c t.val t.isLt (ix2 p q) = G (ids m c) (wts m c) (bias m c) (((cfg0.win 3).blk t).view.emb (ix2 p q))
  have e : ((cfg0.win 3).blk t).view.emb (ix2 p q) = ix2 (rowOf t p) q := funext fun a => Fin.ext (by
    match a with
    | ⟨0, _⟩ => show win0_3.index t (0 : Fin 2) * 1024 + 1 * p.val = t.val / 32 * 1024 + p.val; omega
    | ⟨1, _⟩ => show win0_3.index t (1 : Fin 2) * 1024 + 1 * q.val = q.val; omega)
  rw [e, outs_eq m c t.val t.isLt p q]
  unfold held
  rw [if_pos h31]
  show run (ids m c) (wts m c) (rowOf t p) q 31 + bias m c (ix1 q)
    = (∑ k : Fin 32768, term (ids m c) (wts m c) (rowOf t p) q k) + bias m c (ix1 q)
  rw [run_last]

/-- Every entry of the result is in the block written back after its tile's last position. -/
theorem cover (i : S4096x1024.Idx) : ∃ t : Fin cfg0.N, (cfg0.win 3).flush t = true ∧ i ∈ ((cfg0.win 3).blk t).view.set := by
  have hi0 : (i 0).val < 4096 := idx2_lt0 i
  have hi1 : (i 1).val < 1024 := idx2_lt1 i
  have hN : cfg0.N = 128 := N_0
  have hlt : (i 0).val / 1024 * 32 + 31 < cfg0.N := by rw [hN]; omega
  obtain ⟨-, -, -, -, -, -, e0, e1⟩ := index_facts ⟨(i 0).val / 1024 * 32 + 31, hlt⟩
  have e0' : win0_3.index ⟨(i 0).val / 1024 * 32 + 31, hlt⟩ (0 : Fin 2) = ((i 0).val / 1024 * 32 + 31) / 32 := e0
  refine ⟨⟨(i 0).val / 1024 * 32 + 31, hlt⟩, (flush0_3 _).mpr (by show ((i 0).val / 1024 * 32 + 31) % 32 = 31; omega), ?_⟩
  rw [mem_blk]
  intro a
  match a with
  | ⟨0, _⟩ =>
    show win0_3.index ⟨(i 0).val / 1024 * 32 + 31, hlt⟩ (0 : Fin 2) * 1024 ≤ (i 0).val
      ∧ (i 0).val < win0_3.index ⟨(i 0).val / 1024 * 32 + 31, hlt⟩ (0 : Fin 2) * 1024 + 1024
    rw [e0']; omega
  | ⟨1, _⟩ =>
    show win0_3.index ⟨(i 0).val / 1024 * 32 + 31, hlt⟩ (1 : Fin 2) * 1024 ≤ (i 1).val
      ∧ (i 1).val < win0_3.index ⟨(i 0).val / 1024 * 32 + 31, hlt⟩ (1 : Fin 2) * 1024 + 1024
    rw [e1]; omega

/-- THE RESULT ARRAY after the run. -/
theorem final (c : Dev nD) : (dats m 0 c).arrAt 3 cfg0.N = G (ids m c) (wts m c) (bias m c) :=
  (dats m 0 c).arrAt_eq_of_cover 3 (G (ids m c) (wts m c) (bias m c)) (flushed_eq m c) cover

/-- The zero vector the host writes after the kernel (it is both remaining results). -/
abbrev zeros : S4096.Idx → Ideal .f32 := broadcastInDim S4096 ![] bcast_S_S4096 (constant (F := Ideal) S_ .f32 0x00000000#32)

theorem zeros_eq (c : Dev nD) : Pipeline.afterTail₀ cfgs (dats m) 0 (V0 m) [hostOps1] c main_v4 = zeros := by
  unfold Pipeline.afterTail₀
  show StableHlo.after hostOps1 _ (Proc.devRef .tc main_v4) = _
  after_results <;> rfl

/-- The run, read: the result at `G` of the arguments, the two zero vectors, the arguments unchanged. -/
theorem run : θ_run defs (onTc (τ := τ) (main (F := Ideal))) ⟨m, fun _ => 0, ρ⟩ fun r => ∀ c : Dev nD,
      r.2.mem ((c.tc : Thread nD τ).loc main_v3) = G (ids m c) (wts m c) (bias m c)
      ∧ r.2.mem ((c.tc : Thread nD τ).loc main_v4) = zeros
      ∧ r.2.mem ((c.tc : Thread nD τ).loc main_v4) = zeros
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 3).trans (final m c),
      ((h c).2 main_v4 (Pipeline.mem_restRefs_of main_v4 (by decide) (by decide))).trans (zeros_eq m c),
      ((h c).2 main_v4 (Pipeline.mem_restRefs_of main_v4 (by decide) (by decide))).trans (zeros_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Final

end
-- ==== Proof.lean ====
/-
  The kernel against its reference, over the extended reals.

  Both programs compute, for a batch row `b` and an output column `n`,
      G(b, n) = ∑_{k < 32768} [x(b, k / 1024) = k % 1024] · W(n, k)  +  bias(n),
  the "one-hot board times the transposed weights, plus bias" of the reference; and both return two zero vectors of
  length 4096 besides.
    * The reference is that expression, operation by operation (Proof/RefSide.lean, over its generated run).
    * The kernel walks a grid of 4 batch tiles × 32 sequence positions.  At position `s` it multiplies the one-hot rows
      of `x(·, s)` with the weight columns `1024·s … 1024·s + 1023` and adds the product into the tile's output block,
      cleared at `s = 0`; after `s = 31` it adds the bias and the block is written back.  Per entry this is the running
      sum `((0 + step 0) + step 1) + … + step 31`, then `+ bias` (Proof/Pieces.lean, Payload.lean, Blocks.lean,
      Chain.lean), and the four written-back blocks tile the result (Proof/Final.lean).
    * The running sum is the single sum over `k = 1024·s + v`, regrouped (Proof/Spec.lean, `run_last`).  Only
      commutativity and associativity of addition on the extended reals are used, so the precondition that the float
      inputs are finite is never opened.
  The frames of the three programs are their generated runs; the idealization rewrote nothing, so `preserves` is `True`.
-/
import proofs.«167049_j19018115187270_2_alg».proof.Defs
import proofs.«167049_j19018115187270_2_alg».proof.Proof.Gen.Kernel
import proofs.«167049_j19018115187270_2_alg».proof.Proof.Gen.Kernel.Skeleton
import proofs.«167049_j19018115187270_2_alg».proof.Proof.Gen.Kernel.Launch
import proofs.«167049_j19018115187270_2_alg».proof.Proof.Gen.Kernel.Points
import proofs.«167049_j19018115187270_2_alg».proof.Proof.Gen.Kernel.Frame
import proofs.«167049_j19018115187270_2_alg».proof.Proof.Gen.KernelIdeal
import proofs.«167049_j19018115187270_2_alg».proof.Proof.Gen.KernelIdeal.Skeleton
import proofs.«167049_j19018115187270_2_alg».proof.Proof.Gen.KernelIdeal.Launch
import proofs.«167049_j19018115187270_2_alg».proof.Proof.Gen.KernelIdeal.Points
import proofs.«167049_j19018115187270_2_alg».proof.Proof.Gen.KernelIdeal.Frame
import proofs.«167049_j19018115187270_2_alg».proof.Proof.Gen.ReferenceIdeal
import proofs.«167049_j19018115187270_2_alg».proof.Proof.Gen.ReferenceIdeal.Run
import proofs.«167049_j19018115187270_2_alg».proof.Proof.Gen.ReferenceIdeal.Read
import proofs.«167049_j19018115187270_2_alg».proof.Proof.Gen.Pre_finite_inputs
import proofs.«167049_j19018115187270_2_alg».proof.Proof.RefSide
import proofs.«167049_j19018115187270_2_alg».proof.Proof.Final
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its generated run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories that agree on the three arguments, the kernel's result array ends at `G` of its arguments
    (Proof/Final.lean) and the reference's at `G` of its own (Proof/RefSide.lean): the same function of equal arrays.
    The two zero vectors are one term on both sides. -/
theorem algebraic : Cert.algebraic_KernelIdeal_ReferenceIdeal := by
  intro m ρ m' ρ' _ hagree
  refine ⟨fun c => Cert.EmbedSum.G (Cert.KernelIdeal.Chain.ids m c) (Cert.KernelIdeal.Chain.wts m c) (Cert.KernelIdeal.Chain.bias m c),
    fun _ => Cert.KernelIdeal.Final.zeros, fun _ => Cert.KernelIdeal.Final.zeros, Cert.KernelIdeal.Final.run m ρ, ?_⟩
  refine (θ_run Cert.ReferenceIdeal.defs _ _).mono (fun _ h c => ⟨?_, (h c).2.1, (h c).2.2.1, (h c).2.2.2⟩)
    (Cert.ReferenceIdeal.Value.run (F := Ideal) m' ρ')
  rw [(h c).1, Cert.ReferenceIdeal.Read.val_main_v6_eq, Cert.ReferenceIdeal.RefSide.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
